-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1x512x100 : Shape := ⟨3, ![1, 512, 100]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512x100 : S_.BroadcastsInDim S1x512x100 (![] : Fin 0 → Fin S1x512x100.rank)
  reducesTo_S1x512x100_S_d0_1_2 : S1x512x100.ReducesTo [0, 1, 2] S_

variable [Facts]

def fn {F : FTy → Type} [FloatOps F] (main_arg0 : FVec F S4096x512 .f32) (main_arg1 : FVec F S1x512x100 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1x512x100 .f32 := Host.absf main_arg1
  let main_cst_0 : FVec F S_ .f32 := constant S_ .f32 0x7F800000#32
  let main_v5 : FVec F S1x512x100 .f32 := broadcastInDim S1x512x100 ![] bcast_S_S1x512x100 main_cst_0
  let main_v6 : IVec S1x512x100 1 := cmpf .olt main_v4 main_v5
  let main_c_1 : IVec S_ 1 := constantI S_ 1 1#1
  let main_v7 : IVec S_ 1 := (fun x v => Host.reduce IntOp.andi x v reducesTo_S1x512x100_S_d0_1_2 h_S_) main_v6 main_c_1
  let main_v8 : IVec S_ 1 := andi main_v3 main_v7
  main_v8
-- ==== Kernel.lean ====
abbrev S4096x512 : Shape := ⟨2, ![4096, 512]⟩
abbrev S1x512x100 : Shape := ⟨3, ![1, 512, 100]⟩
abbrev S512x100 : Shape := ⟨2, ![512, 100]⟩
abbrev S_ : Shape := ⟨0, ![]⟩
abbrev S100 : Shape := ⟨1, ![100]⟩
abbrev S1x100 : Shape := ⟨2, ![1, 100]⟩
abbrev S4096x100 : Shape := ⟨2, ![4096, 100]⟩
abbrev S512x512 : Shape := ⟨2, ![512, 512]⟩
abbrev S512 : Shape := ⟨1, ![512]⟩
abbrev S512x1 : Shape := ⟨2, ![512, 1]⟩
abbrev S512x8 : Shape := ⟨2, ![512, 8]⟩
abbrev S8x100 : Shape := ⟨2, ![8, 100]⟩
abbrev S512x8x1 : Shape := ⟨3, ![512, 8, 1]⟩
abbrev S1x8x100 : Shape := ⟨3, ![1, 8, 100]⟩
abbrev S512x8x100 : Shape := ⟨3, ![512, 8, 100]⟩

abbrev nBuf : Space → Nat
  | .hbm => 9
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S1x512x100, .f32⟩
  | .hbm, ⟨2, _⟩ => ⟨S512x100, .f32⟩
  | .hbm, ⟨3, _⟩ => ⟨S512x100, .f32⟩
  | .hbm, ⟨4, _⟩ => ⟨S_, .f32⟩
  | .hbm, ⟨5, _⟩ => ⟨S100, .f32⟩
  | .hbm, ⟨6, _⟩ => ⟨S1x100, .f32⟩
  | .hbm, ⟨7, _⟩ => ⟨S1x100, .f32⟩
  | .hbm, ⟨8, _⟩ => ⟨S4096x100, .f32⟩
  | .local _ .vmem, ⟨0, _⟩ => ⟨S512x512, .f32⟩
  | .local _ .vmem, ⟨1, _⟩ => ⟨S512x512, .f32⟩
  | .local _ .vmem, ⟨2, _⟩ => ⟨S512x100, .f32⟩
  | .local _ .vmem, ⟨3, _⟩ => ⟨S1x100, .f32⟩
  | .local _ .vmem, ⟨4, _⟩ => ⟨S512x100, .f32⟩
  | .local _ .vmem, ⟨5, _⟩ => ⟨S512x100, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x100_S512x100 : S1x512x100.ShapeCasts S512x100
  reducesTo_S512x100_S100_d0 : S512x100.ReducesTo [0] S100
  h_S_ : 0 < S_.numel
  bcast_S100_S1x100_1 : S100.BroadcastsInDim S1x100 (![1] : Fin 1 → Fin S1x100.rank)
  inb_S512x512_S512x512_0_0 : ∀ a, (![0, 0] : Fin 2 → Nat) a + S512x512.size a ≤ S512x512.size a
  h_S512x512 : 0 < S512x512.numel
  inb_S512x100_S512x100_0_0 : ∀ a, (![0, 0] : Fin 2 → Nat) a + S512x100.size a ≤ S512x100.size a
  h_S512x100 : 0 < S512x100.numel
  shapeCasts_S512x100_S512x100 : S512x100.ShapeCasts S512x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  reduces_S512x512_S512 : S512x512.Reduces [1] S512
  shapeCasts_S512_S512x1 : S512.ShapeCasts S512x1
  broadcasts_S512x1_S512x100 : S512x1.Broadcasts S512x100
  broadcasts_S1x100_S512x100 : S1x100.Broadcasts S512x100
  reduces_S512x100_S512 : S512x100.Reduces [1] S512
  slices_S512x512_o0_0_S512x8 : S512x512.Slices ![0, 0] S512x8
  slices_S512x100_o0_0_S8x100 : S512x100.Slices ![0, 0] S8x100
  shapeCasts_S512x8_S512x8x1 : S512x8.ShapeCasts S512x8x1
  shapeCasts_S8x100_S1x8x100 : S8x100.ShapeCasts S1x8x100
  broadcasts_S512x8x1_S512x8x100 : S512x8x1.Broadcasts S512x8x100
  broadcasts_S1x8x100_S512x8x100 : S1x8x100.Broadcasts S512x8x100
  reduces_S512x8x100_S512x100 : S512x8x100.Reduces [1] S512x100
  slices_S512x512_o0_8_S512x8 : S512x512.Slices ![0, 8] S512x8
  slices_S512x100_o8_0_S8x100 : S512x100.Slices ![8, 0] S8x100
  slices_S512x512_o0_16_S512x8 : S512x512.Slices ![0, 16] S512x8
  slices_S512x100_o16_0_S8x100 : S512x100.Slices ![16, 0] S8x100
  slices_S512x512_o0_24_S512x8 : S512x512.Slices ![0, 24] S512x8
  slices_S512x100_o24_0_S8x100 : S512x100.Slices ![24, 0] S8x100
  slices_S512x512_o0_32_S512x8 : S512x512.Slices ![0, 32] S512x8
  slices_S512x100_o32_0_S8x100 : S512x100.Slices ![32, 0] S8x100
  slices_S512x512_o0_40_S512x8 : S512x512.Slices ![0, 40] S512x8
  slices_S512x100_o40_0_S8x100 : S512x100.Slices ![40, 0] S8x100
  slices_S512x512_o0_48_S512x8 : S512x512.Slices ![0, 48] S512x8
  slices_S512x100_o48_0_S8x100 : S512x100.Slices ![48, 0] S8x100
  slices_S512x512_o0_56_S512x8 : S512x512.Slices ![0, 56] S512x8
  slices_S512x100_o56_0_S8x100 : S512x100.Slices ![56, 0] S8x100
  slices_S512x512_o0_64_S512x8 : S512x512.Slices ![0, 64] S512x8
  slices_S512x100_o64_0_S8x100 : S512x100.Slices ![64, 0] S8x100
  slices_S512x512_o0_72_S512x8 : S512x512.Slices ![0, 72] S512x8
  slices_S512x100_o72_0_S8x100 : S512x100.Slices ![72, 0] S8x100
  slices_S512x512_o0_80_S512x8 : S512x512.Slices ![0, 80] S512x8
  slices_S512x100_o80_0_S8x100 : S512x100.Slices ![80, 0] S8x100
  slices_S512x512_o0_88_S512x8 : S512x512.Slices ![0, 88] S512x8
  slices_S512x100_o88_0_S8x100 : S512x100.Slices ![88, 0] S8x100
  slices_S512x512_o0_96_S512x8 : S512x512.Slices ![0, 96] S512x8
  slices_S512x100_o96_0_S8x100 : S512x100.Slices ![96, 0] S8x100
  slices_S512x512_o0_104_S512x8 : S512x512.Slices ![0, 104] S512x8
  slices_S512x100_o104_0_S8x100 : S512x100.Slices ![104, 0] S8x100
  slices_S512x512_o0_112_S512x8 : S512x512.Slices ![0, 112] S512x8
  slices_S512x100_o112_0_S8x100 : S512x100.Slices ![112, 0] S8x100
  slices_S512x512_o0_120_S512x8 : S512x512.Slices ![0, 120] S512x8
  slices_S512x100_o120_0_S8x100 : S512x100.Slices ![120, 0] S8x100
  slices_S512x512_o0_128_S512x8 : S512x512.Slices ![0, 128] S512x8
  slices_S512x100_o128_0_S8x100 : S512x100.Slices ![128, 0] S8x100
  slices_S512x512_o0_136_S512x8 : S512x512.Slices ![0, 136] S512x8
  slices_S512x100_o136_0_S8x100 : S512x100.Slices ![136, 0] S8x100
  slices_S512x512_o0_144_S512x8 : S512x512.Slices ![0, 144] S512x8
  slices_S512x100_o144_0_S8x100 : S512x100.Slices ![144, 0] S8x100
  slices_S512x512_o0_152_S512x8 : S512x512.Slices ![0, 152] S512x8
  slices_S512x100_o152_0_S8x100 : S512x100.Slices ![152, 0] S8x100
  slices_S512x512_o0_160_S512x8 : S512x512.Slices ![0, 160] S512x8
  slices_S512x100_o160_0_S8x100 : S512x100.Slices ![160, 0] S8x100
  slices_S512x512_o0_168_S512x8 : S512x512.Slices ![0, 168] S512x8
  slices_S512x100_o168_0_S8x100 : S512x100.Slices ![168, 0] S8x100
  slices_S512x512_o0_176_S512x8 : S512x512.Slices ![0, 176] S512x8
  slices_S512x100_o176_0_S8x100 : S512x100.Slices ![176, 0] S8x100
  slices_S512x512_o0_184_S512x8 : S512x512.Slices ![0, 184] S512x8
  slices_S512x100_o184_0_S8x100 : S512x100.Slices ![184, 0] S8x100
  slices_S512x512_o0_192_S512x8 : S512x512.Slices ![0, 192] S512x8
  slices_S512x100_o192_0_S8x100 : S512x100.Slices ![192, 0] S8x100
  slices_S512x512_o0_200_S512x8 : S512x512.Slices ![0, 200] S512x8
  slices_S512x100_o200_0_S8x100 : S512x100.Slices ![200, 0] S8x100
  slices_S512x512_o0_208_S512x8 : S512x512.Slices ![0, 208] S512x8
  slices_S512x100_o208_0_S8x100 : S512x100.Slices ![208, 0] S8x100
  slices_S512x512_o0_216_S512x8 : S512x512.Slices ![0, 216] S512x8
  slices_S512x100_o216_0_S8x100 : S512x100.Slices ![216, 0] S8x100
  slices_S512x512_o0_224_S512x8 : S512x512.Slices ![0, 224] S512x8
  slices_S512x100_o224_0_S8x100 : S512x100.Slices ![224, 0] S8x100
  slices_S512x512_o0_232_S512x8 : S512x512.Slices ![0, 232] S512x8
  slices_S512x100_o232_0_S8x100 : S512x100.Slices ![232, 0] S8x100
  slices_S512x512_o0_240_S512x8 : S512x512.Slices ![0, 240] S512x8
  slices_S512x100_o240_0_S8x100 : S512x100.Slices ![240, 0] S8x100
  slices_S512x512_o0_248_S512x8 : S512x512.Slices ![0, 248] S512x8
  slices_S512x100_o248_0_S8x100 : S512x100.Slices ![248, 0] S8x100
  slices_S512x512_o0_256_S512x8 : S512x512.Slices ![0, 256] S512x8
  slices_S512x100_o256_0_S8x100 : S512x100.Slices ![256, 0] S8x100
  slices_S512x512_o0_264_S512x8 : S512x512.Slices ![0, 264] S512x8
  slices_S512x100_o264_0_S8x100 : S512x100.Slices ![264, 0] S8x100
  slices_S512x512_o0_272_S512x8 : S512x512.Slices ![0, 272] S512x8
  slices_S512x100_o272_0_S8x100 : S512x100.Slices ![272, 0] S8x100
  slices_S512x512_o0_280_S512x8 : S512x512.Slices ![0, 280] S512x8
  slices_S512x100_o280_0_S8x100 : S512x100.Slices ![280, 0] S8x100
  slices_S512x512_o0_288_S512x8 : S512x512.Slices ![0, 288] S512x8
  slices_S512x100_o288_0_S8x100 : S512x100.Slices ![288, 0] S8x100
  slices_S512x512_o0_296_S512x8 : S512x512.Slices ![0, 296] S512x8
  slices_S512x100_o296_0_S8x100 : S512x100.Slices ![296, 0] S8x100
  slices_S512x512_o0_304_S512x8 : S512x512.Slices ![0, 304] S512x8
  slices_S512x100_o304_0_S8x100 : S512x100.Slices ![304, 0] S8x100
  slices_S512x512_o0_312_S512x8 : S512x512.Slices ![0, 312] S512x8
  slices_S512x100_o312_0_S8x100 : S512x100.Slices ![312, 0] S8x100
  slices_S512x512_o0_320_S512x8 : S512x512.Slices ![0, 320] S512x8
  slices_S512x100_o320_0_S8x100 : S512x100.Slices ![320, 0] S8x100
  slices_S512x512_o0_328_S512x8 : S512x512.Slices ![0, 328] S512x8
  slices_S512x100_o328_0_S8x100 : S512x100.Slices ![328, 0] S8x100
  slices_S512x512_o0_336_S512x8 : S512x512.Slices ![0, 336] S512x8
  slices_S512x100_o336_0_S8x100 : S512x100.Slices ![336, 0] S8x100
  slices_S512x512_o0_344_S512x8 : S512x512.Slices ![0, 344] S512x8
  slices_S512x100_o344_0_S8x100 : S512x100.Slices ![344, 0] S8x100
  slices_S512x512_o0_352_S512x8 : S512x512.Slices ![0, 352] S512x8
  slices_S512x100_o352_0_S8x100 : S512x100.Slices ![352, 0] S8x100
  slices_S512x512_o0_360_S512x8 : S512x512.Slices ![0, 360] S512x8
  slices_S512x100_o360_0_S8x100 : S512x100.Slices ![360, 0] S8x100
  slices_S512x512_o0_368_S512x8 : S512x512.Slices ![0, 368] S512x8
  slices_S512x100_o368_0_S8x100 : S512x100.Slices ![368, 0] S8x100
  slices_S512x512_o0_376_S512x8 : S512x512.Slices ![0, 376] S512x8
  slices_S512x100_o376_0_S8x100 : S512x100.Slices ![376, 0] S8x100
  slices_S512x512_o0_384_S512x8 : S512x512.Slices ![0, 384] S512x8
  slices_S512x100_o384_0_S8x100 : S512x100.Slices ![384, 0] S8x100
  slices_S512x512_o0_392_S512x8 : S512x512.Slices ![0, 392] S512x8
  slices_S512x100_o392_0_S8x100 : S512x100.Slices ![392, 0] S8x100
  slices_S512x512_o0_400_S512x8 : S512x512.Slices ![0, 400] S512x8
  slices_S512x100_o400_0_S8x100 : S512x100.Slices ![400, 0] S8x100
  slices_S512x512_o0_408_S512x8 : S512x512.Slices ![0, 408] S512x8
  slices_S512x100_o408_0_S8x100 : S512x100.Slices ![408, 0] S8x100
  slices_S512x512_o0_416_S512x8 : S512x512.Slices ![0, 416] S512x8
  slices_S512x100_o416_0_S8x100 : S512x100.Slices ![416, 0] S8x100
  slices_S512x512_o0_424_S512x8 : S512x512.Slices ![0, 424] S512x8
  slices_S512x100_o424_0_S8x100 : S512x100.Slices ![424, 0] S8x100
  slices_S512x512_o0_432_S512x8 : S512x512.Slices ![0, 432] S512x8
  slices_S512x100_o432_0_S8x100 : S512x100.Slices ![432, 0] S8x100
  slices_S512x512_o0_440_S512x8 : S512x512.Slices ![0, 440] S512x8
  slices_S512x100_o440_0_S8x100 : S512x100.Slices ![440, 0] S8x100
  slices_S512x512_o0_448_S512x8 : S512x512.Slices ![0, 448] S512x8
  slices_S512x100_o448_0_S8x100 : S512x100.Slices ![448, 0] S8x100
  slices_S512x512_o0_456_S512x8 : S512x512.Slices ![0, 456] S512x8
  slices_S512x100_o456_0_S8x100 : S512x100.Slices ![456, 0] S8x100
  slices_S512x512_o0_464_S512x8 : S512x512.Slices ![0, 464] S512x8
  slices_S512x100_o464_0_S8x100 : S512x100.Slices ![464, 0] S8x100
  slices_S512x512_o0_472_S512x8 : S512x512.Slices ![0, 472] S512x8
  slices_S512x100_o472_0_S8x100 : S512x100.Slices ![472, 0] S8x100
  slices_S512x512_o0_480_S512x8 : S512x512.Slices ![0, 480] S512x8
  slices_S512x100_o480_0_S8x100 : S512x100.Slices ![480, 0] S8x100
  slices_S512x512_o0_488_S512x8 : S512x512.Slices ![0, 488] S512x8
  slices_S512x100_o488_0_S8x100 : S512x100.Slices ![488, 0] S8x100
  slices_S512x512_o0_496_S512x8 : S512x512.Slices ![0, 496] S512x8
  slices_S512x100_o496_0_S8x100 : S512x100.Slices ![496, 0] S8x100
  slices_S512x512_o0_504_S512x8 : S512x512.Slices ![0, 504] S512x8
  slices_S512x100_o504_0_S8x100 : S512x100.Slices ![504, 0] S8x100
  dot_S512x512_S512x100_S512x100_1_0_0_1_n_n_wf : DotDims.WF S512x512 S512x100 S512x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x100.size a ≤ S512x100.size a
  hwx0_1 : ∀ i : grid0.Coords, EltTy.bits .f32 = 32 ∨ (Rect.block (s := S512x100) S512x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x100.size a ≤ S4096x100.size a
  hwx0_3 : ∀ i : grid0.Coords, EltTy.bits .f32 = 32 ∨ (Rect.block (s := S4096x100) S512x100.size (cc0_transform_3 i) (hinb0_3 i)).WholeWords (EltTy.packing .f32)

variable [Facts₀]

def dot_S512x512_S512x100_S512x100_1_0_0_1_n_n : DotDims S512x512 S512x100 S512x100 where
  lhsContracting := [1]
  rhsContracting := [0]
  lhsNonContracting := [0]
  rhsNonContracting := [1]
  lhsBatch := []
  rhsBatch := []
  wf := dot_S512x512_S512x100_S512x100_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S1x512x100 : Shape := ⟨3, ![1, 512, 100]⟩
abbrev S4096x512x1 : Shape := ⟨3, ![4096, 512, 1]⟩
abbrev S4096x512x100 : Shape := ⟨3, ![4096, 512, 100]⟩
abbrev S_ : Shape := ⟨0, ![]⟩
abbrev S4096x100 : Shape := ⟨2, ![4096, 100]⟩
abbrev S4096 : Shape := ⟨1, ![4096]⟩
abbrev S4096x1 : Shape := ⟨2, ![4096, 1]⟩
abbrev S512x100 : Shape := ⟨2, ![512, 100]⟩
abbrev S100 : Shape := ⟨1, ![100]⟩
abbrev S1x100 : Shape := ⟨2, ![1, 100]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512x100, .f32⟩
  | .hbm, ⟨2, _⟩ => ⟨S4096x512x1, .f32⟩
  | .hbm, ⟨3, _⟩ => ⟨S4096x512x100, .f32⟩
  | .hbm, ⟨4, _⟩ => ⟨S4096x512x100, .f32⟩
  | .hbm, ⟨5, _⟩ => ⟨S4096x512x100, .f32⟩
  | .hbm, ⟨6, _⟩ => ⟨S4096x512x100, .f32⟩
  | .hbm, ⟨7, _⟩ => ⟨S_, .f32⟩
  | .hbm, ⟨8, _⟩ => ⟨S4096x100, .f32⟩
  | .hbm, ⟨9, _⟩ => ⟨S4096x100, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x100, .f32⟩
  | .hbm, ⟨17, _⟩ => ⟨S4096x100, .f32⟩
  | .hbm, ⟨18, _⟩ => ⟨S4096x100, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x100, .f32⟩
  | .hbm, ⟨23, _⟩ => ⟨S4096x100, .f32⟩
  | .hbm, ⟨24, _⟩ => ⟨S512x100, .f32⟩
  | .hbm, ⟨25, _⟩ => ⟨S4096x100, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x1, .f32⟩
  | .hbm, ⟨31, _⟩ => ⟨S512x100, .f32⟩
  | .hbm, ⟨32, _⟩ => ⟨S_, .f32⟩
  | .hbm, ⟨33, _⟩ => ⟨S100, .f32⟩
  | .hbm, ⟨34, _⟩ => ⟨S1x100, .f32⟩
  | .hbm, ⟨35, _⟩ => ⟨S1x100, .f32⟩
  | .hbm, ⟨36, _⟩ => ⟨S4096x100, .f32⟩
  | .hbm, ⟨37, _⟩ => ⟨S4096x100, .f32⟩
  | .hbm, ⟨38, _⟩ => ⟨S4096x100, .f32⟩
  | .hbm, ⟨39, _⟩ => ⟨S_, .f32⟩
  | .hbm, ⟨40, _⟩ => ⟨S4096x100, .f32⟩
  | .hbm, ⟨41, _⟩ => ⟨S4096x100, .f32⟩
  | .hbm, ⟨42, _⟩ => ⟨S4096x100, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1, .f32⟩
  | .hbm, ⟨52, _⟩ => ⟨S4096x100, .f32⟩
  | .hbm, ⟨53, _⟩ => ⟨S4096x100, .f32⟩
  | .hbm, ⟨54, _⟩ => ⟨S4096x100, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x100, .f32⟩
  | .hbm, ⟨59, _⟩ => ⟨S4096x100, .f32⟩
  | .hbm, ⟨60, _⟩ => ⟨S4096x100, .f32⟩
  | .hbm, ⟨61, _⟩ => ⟨S4096x100, .f32⟩
  | .hbm, ⟨62, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]

class Facts₀ : Prop where
  bcast_S4096x512_S4096x512x1_0_1 : S4096x512.BroadcastsInDim S4096x512x1 (![0, 1] : Fin 2 → Fin S4096x512x1.rank)
  bcast_S4096x512x1_S4096x512x100_0_1_2 : S4096x512x1.BroadcastsInDim S4096x512x100 (![0, 1, 2] : Fin 3 → Fin S4096x512x100.rank)
  bcast_S1x512x100_S4096x512x100_0_1_2 : S1x512x100.BroadcastsInDim S4096x512x100 (![0, 1, 2] : Fin 3 → Fin S4096x512x100.rank)
  reducesTo_S4096x512x100_S4096x100_d1 : S4096x512x100.ReducesTo [1] S4096x100
  h_S_ : 0 < S_.numel
  reducesTo_S4096x100_S4096_d1 : S4096x100.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  shapeCasts_S1x512x100_S512x100 : S1x512x100.ShapeCasts S512x100
  reducesTo_S4096x512_S4096_d1 : S4096x512.ReducesTo [1] S4096
  reducesTo_S512x100_S100_d0 : S512x100.ReducesTo [0] S100
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  dot_S4096x512_S512x100_S4096x100_1_0_0_1_n_n_wf : DotDims.WF S4096x512 S512x100 S4096x100 [1] [0] [0] [1] [] []

variable [Facts₀]

def dot_S4096x512_S512x100_S4096x100_1_0_0_1_n_n : DotDims S4096x512 S512x100 S4096x100 where
  lhsContracting := [1]
  rhsContracting := [0]
  lhsNonContracting := [0]
  rhsNonContracting := [1]
  lhsBatch := []
  rhsBatch := []
  wf := dot_S4096x512_S512x100_S4096x100_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«115044_j76836964926347_2_alg».proof.Proof.LibRowLayers
import proofs.«115044_j76836964926347_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibSoftmaxRows.lean ====
/-
  A row-wise softmax over the extended reals, in the two spellings a program may take.

  softmax sends a row f to j ↦ exp (f j − M) / ∑ k, exp (f k − M), M the row's largest entry, taken as a fold of max
  from a start value z (both programs take z to be −∞, and both take the maximum of z with the fold once more, which
  changes nothing: the start value is below the fold). The device computes it with lane reductions whose results are
  re-laid as a column and broadcast back along the lanes; the host with reduces broadcast back through a unit column,
  its float sum started from the constant 0. Read at an entry (p, j), for any number of rows, both are softmax of row p
  at j: the division, the exponential and the subtraction are the same functions on every extended real in both
  spellings, so nothing here asks for finiteness.
-/
import proofs.«115044_j76836964926347_2_alg».proof.Proof.LibChebRows

noncomputable section

namespace Cert.SoftmaxRows

open Idealize.ShloMosaic Idealize.ShloMosaic.ValueIdx Cert.RowLayers Cert.ChebRows

/-- softmax of a row: the exponentials of the row shifted by its largest entry, each divided by their sum. -/
def softmax {n : ℕ} (z : EReal) (f : Fin n → EReal) : Fin n → EReal :=
  fun j => Ideal.div (Ideal.exp (f j - rowMax z f)) (∑ k : Fin n, Ideal.exp (f k - rowMax z f))

theorem softmax_apply {n : ℕ} (z : EReal) (f : Fin n → EReal) (j : Fin n) :
    softmax z f j = Ideal.div (Ideal.exp (f j - rowMax z f)) (∑ k : Fin n, Ideal.exp (f k - rowMax z f)) := rfl

/-- softmax depends on the row only. -/
theorem softmax_congr {n : ℕ} (z : EReal) {f g : Fin n → EReal} (h : ∀ j, f j = g j) : softmax z f = softmax z g := by
  rw [show f = g from funext h]

/-! ## The device's spelling -/

section Device
variable {a n : ℕ} {φ : FTy}

/-- The shifted exponentials: the array minus (the column of per-row maxima, each taken once more with the start value,
    broadcast along the lanes), exponentiated, read at (p, j). -/
theorem device_shiftExp_apply (x : FVec Ideal ⟨2, ![a, n]⟩ φ) (acc : BitVec φ.bits)
    (h : (⟨2, ![a, n]⟩ : Shape).Reduces [1] (⟨1, ![a]⟩ : Shape)) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, n]⟩) (p : Fin a) (j : Fin n) :
    exp (subf x (broadcastTo ⟨2, ![a, n]⟩ (shapeCast ⟨2, ![a, 1]⟩
        (maximumf (broadcast (⟨1, ![a]⟩ : Shape) (Scalar.ofBits φ acc)) (multiReduction .maximumf [1] ⟨1, ![a]⟩ x acc h hφ hacc)) hc) hb)) (ix2 p j)
      = Ideal.exp (x (ix2 p j) - rowMax (Ideal.ofBits φ acc) (rowOf x p)) := by
  show Ideal.exp (x (ix2 p j) - broadcastTo ⟨2, ![a, n]⟩ (shapeCast ⟨2, ![a, 1]⟩ _ hc) hb (ix2 p j)) = _
  rw [column_device_apply]
  show Ideal.exp (x (ix2 p j) - max (Ideal.ofBits φ acc) (multiReduction .maximumf [1] ⟨1, ![a]⟩ x acc h hφ hacc (ix1 p))) = _
  rw [multiReduction_max_row, max_rowMax]

/-- The device's softmax, read at (p, j), is softmax of row p at j. -/
theorem device_softmax_apply (x : FVec Ideal ⟨2, ![a, n]⟩ φ) (acc acc0 : BitVec φ.bits)
    (h : (⟨2, ![a, n]⟩ : Shape).Reduces [1] (⟨1, ![a]⟩ : Shape)) (hφ : FKind.Formats φ) (hacc : acc = FKind.maximumf.neutral φ hφ)
    (hacc0 : acc0 = FKind.add.neutral φ hφ)
    (hc : (⟨1, ![a]⟩ : Shape).ShapeCasts ⟨2, ![a, 1]⟩) (hb : (⟨2, ![a, 1]⟩ : Shape).Broadcasts ⟨2, ![a, n]⟩) (p : Fin a) (j : Fin n) :
    divf (exp (subf x (broadcastTo ⟨2, ![a, n]⟩ (shapeCast ⟨2, ![a, 1]⟩
            (maximumf (broadcast (⟨1, ![a]⟩ : Shape) (Scalar.ofBits φ acc)) (multiReduction .maximumf [1] ⟨1, ![a]⟩ x acc h hφ hacc)) hc) hb)))
         (broadcastTo ⟨2, ![a, n]⟩ (shapeCast ⟨2, ![a, 1]⟩
            (multiReduction .add [1] ⟨1, ![a]⟩
              (exp (subf x (broadcastTo ⟨2, ![a, n]⟩ (shapeCast ⟨2, ![a, 1]⟩
                (maximumf (broadcast (⟨1, ![a]⟩ : Shape) (Scalar.ofBits φ acc)) (multiReduction .maximumf [1] ⟨1, ![a]⟩ x acc h hφ hacc)) hc) hb)))
              acc0 h hφ hacc0) hc) hb) (ix2 p j)
      = softmax (Ideal.ofBits φ acc) (rowOf x p) j := by
  show Ideal.div (exp (subf x _) (ix2 p j)) (broadcastTo ⟨2, ![a, n]⟩ (shapeCast ⟨2, ![a, 1]⟩ _ hc) hb (ix2 p j)) = _
  rw [column_device_apply, multiReduction_add_row, device_shiftExp_apply]
  refine congrArg (Ideal.div _) (Finset.sum_congr rfl fun k _ => ?_)
  exact device_shiftExp_apply x acc h hφ hacc hc hb p k

end Device

/-! ## The host's spelling -/

section Host
variable {a n : ℕ}

/-- The host's shifted exponentials read at (p, j). -/
theorem host_shiftExp_apply (x : FVec Ideal ⟨2, ![a, n]⟩ .f32) (w : BitVec 32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    Host.exp (subf x (broadcastInDim ⟨2, ![a, n]⟩ ![0, 1] h2 (broadcastInDim ⟨2, ![a, 1]⟩ ![0] h1
        (maximumf (broadcastInDim (⟨1, ![a]⟩ : Shape) ![] hb0 (constant (F := Ideal) ⟨0, ![]⟩ .f32 w))
                  (Host.reduce FloatOps.maximumf x (constant (F := Ideal) ⟨0, ![]⟩ .f32 w) h' hu))))) (ix2 p j)
      = Ideal.exp (x (ix2 p j) - rowMax (Ideal.ofBits .f32 w) (rowOf x p)) := by
  show Ideal.exp (x (ix2 p j) - _) = _
  rw [lanes_host_apply, column_host_apply]
  show Ideal.exp (x (ix2 p j) - max (Ideal.ofBits .f32 w) (Host.reduce FloatOps.maximumf x (constant (F := Ideal) ⟨0, ![]⟩ .f32 w) h' hu (ix1 p))) = _
  rw [hostReduce_max_row x _ h' h hu p]
  show Ideal.exp (x (ix2 p j) - max (Ideal.ofBits .f32 w) (rowMax (Ideal.ofBits .f32 w) (rowOf x p))) = _
  rw [max_rowMax]

/-- The host's softmax, its sum started from the constant 0, read at (p, j), is softmax of row p at j. -/
theorem host_softmax_apply (x : FVec Ideal ⟨2, ![a, n]⟩ .f32) (w : BitVec 32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    Host.divf
        (Host.exp (subf x (broadcastInDim ⟨2, ![a, n]⟩ ![0, 1] h2 (broadcastInDim ⟨2, ![a, 1]⟩ ![0] h1
          (maximumf (broadcastInDim (⟨1, ![a]⟩ : Shape) ![] hb0 (constant (F := Ideal) ⟨0, ![]⟩ .f32 w))
                    (Host.reduce FloatOps.maximumf x (constant (F := Ideal) ⟨0, ![]⟩ .f32 w) h' hu))))))
        (broadcastInDim ⟨2, ![a, n]⟩ ![0, 1] h2 (broadcastInDim ⟨2, ![a, 1]⟩ ![0] h1
          (Host.reduceAdd
            (Host.exp (subf x (broadcastInDim ⟨2, ![a, n]⟩ ![0, 1] h2 (broadcastInDim ⟨2, ![a, 1]⟩ ![0] h1
              (maximumf (broadcastInDim (⟨1, ![a]⟩ : Shape) ![] hb0 (constant (F := Ideal) ⟨0, ![]⟩ .f32 w))
                        (Host.reduce FloatOps.maximumf x (constant (F := Ideal) ⟨0, ![]⟩ .f32 w) h' hu))))))
            (constant (F := Ideal) ⟨0, ![]⟩ .f32 0x00000000#32) h' hu))) (ix2 p j)
      = softmax (Ideal.ofBits .f32 w) (rowOf x p) j := by
  show Ideal.div (Host.exp (subf x _) (ix2 p j)) _ = _
  rw [lanes_host_apply, column_host_apply, hostReduceAdd_row _ _ h' h hu p, host_shiftExp_apply x w h' h hu hb0 h1 h2 p j]
  show Ideal.div _ (Ideal.ofBits .f32 0x00000000#32 + _) = _
  rw [Ideal.ofBits_zero_f32, zero_add]
  refine congrArg (Ideal.div _) (Finset.sum_congr rfl fun k _ => ?_)
  exact host_shiftExp_apply x w h' h hu hb0 h1 h2 p k

end Host

end Cert.SoftmaxRows

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.PrototypeRows.lean ====
/-
  The row function of a prototype classifier, over the extended reals.

  A sample is a row x of D features; the C class prototypes are the columns of a [D, C] array g, and gn q is the
  length of prototype q. Three row functions of x:
    cosRow   q ↦ (∑ k, x k · g[k, q]) / max (√(∑ k, x k²) · gn q) e        the cosine scores, their denominator floored at e;
    l1Row    q ↦ ∑ k, |x k − g[k, q]|                                      the L1 distances (|d| is max d (−d));
    outRow   q ↦ (largest cosine score · softmax of the cosine scores at q) · softmax of the negated L1 distances at q.
  Both programs compute outRow of every sample. They differ only in how a distance is summed — one sum over all D
  features, or a running total, started at zero, that takes the features eight at a time — and addition of extended
  reals is commutative and associative, infinities included, so the two totals agree with no finiteness asked
  (acc_blocks); and in how a distance is negated — as −d or as 0 − d, the same extended real.
-/
import proofs.«115044_j76836964926347_2_alg».proof.Proof.LibSoftmaxRows
import proofs.«115044_j76836964926347_2_alg».proof.Proof.LibBlockSum

noncomputable section

namespace Cert.PrototypeRows

open Idealize.ShloMosaic Idealize.ShloMosaic.ValueIdx Cert.RowLayers Cert.ChebRows Cert.SoftmaxRows

section Rows
variable {D C : ℕ}

/-- The cosine scores of a sample against every prototype, the denominator floored at e. -/
def cosRow (e : EReal) (x : Fin D → EReal) (g : (⟨2, ![D, C]⟩ : Shape).Idx → EReal) (gn : Fin C → EReal) : Fin C → EReal :=
  fun q => Ideal.div (∑ k : Fin D, x k * g (ix2 k q)) (max (Ideal.sqrt (∑ k : Fin D, x k * x k) * gn q) e)

/-- The absolute difference of a feature and a prototype's entry. -/
def absDiff (x : Fin D → EReal) (g : (⟨2, ![D, C]⟩ : Shape).Idx → EReal) (q : Fin C) (k : Fin D) : EReal :=
  max (x k - g (ix2 k q)) (-(x k - g (ix2 k q)))

/-- The L1 distances of a sample to every prototype. -/
def l1Row (x : Fin D → EReal) (g : (⟨2, ![D, C]⟩ : Shape).Idx → EReal) : Fin C → EReal :=
  fun q => ∑ k : Fin D, absDiff x g q k

/-- The classifier's output row: confidence (the largest cosine score) times the softmax of the cosine scores times the
    softmax of the negated distances. -/
def outRow (z e : EReal) (x : Fin D → EReal) (g : (⟨2, ![D, C]⟩ : Shape).Idx → EReal) (gn : Fin C → EReal) : Fin C → EReal :=
  fun q => (rowMax z (cosRow e x g gn) * softmax z (cosRow e x g gn) q) * softmax z (fun q' => -(l1Row x g q')) q

/-- The start value of the largest-entry folds (the pattern of −∞) and the floor of the scores' denominator (the pattern
    of the constant 1e-8), as the extended reals their patterns denote: the same words in both programs, never evaluated. -/
abbrev startE : EReal := Ideal.ofBits .f32 0xFF800000#32
abbrev floorE : EReal := Ideal.ofBits .f32 0x322BCC77#32

/-- The classifier's output for every sample: row i₀ of the [a, C] result is the output row of sample i₀; the
    prototypes' lengths come as a [1, C] array. -/
def outArr {a : ℕ} (z e : EReal) (X : (⟨2, ![a, D]⟩ : Shape).Idx → EReal) (g : (⟨2, ![D, C]⟩ : Shape).Idx → EReal)
    (gn : (⟨2, ![1, C]⟩ : Shape).Idx → EReal) : (⟨2, ![a, C]⟩ : Shape).Idx → EReal :=
  fun i => outRow z e (rowOf X (i 0)) g (rowOf gn 0) (i 1)

theorem outArr_ix2 {a : ℕ} (z e : EReal) (X : (⟨2, ![a, D]⟩ : Shape).Idx → EReal) (g : (⟨2, ![D, C]⟩ : Shape).Idx → EReal)
    (gn : (⟨2, ![1, C]⟩ : Shape).Idx → EReal) (p : Fin a) (q : Fin C) :
    outArr z e X g gn (ix2 p q) = outRow z e (rowOf X p) g (rowOf gn 0) q := rfl

/-- An array that is, entry by entry, the output row of the matching sample IS the classifier's output array. -/
theorem eq_outArr_of_entries {a : ℕ} (z e : EReal) (X : (⟨2, ![a, D]⟩ : Shape).Idx → EReal) (g : (⟨2, ![D, C]⟩ : Shape).Idx → EReal)
    (gn : (⟨2, ![1, C]⟩ : Shape).Idx → EReal) (A : (⟨2, ![a, C]⟩ : Shape).Idx → EReal)
    (hA : ∀ (p : Fin a) (q : Fin C), A (ix2 p q) = outRow z e (rowOf X p) g (rowOf gn 0) q) : A = outArr z e X g gn :=
  funext fun i => (congrArg A (eq_ix2 i)).trans (hA (i 0) (i 1))

theorem outRow_apply (z e : EReal) (x : Fin D → EReal) (g : (⟨2, ![D, C]⟩ : Shape).Idx → EReal) (gn : Fin C → EReal) (q : Fin C) :
    outRow z e x g gn q = (rowMax z (cosRow e x g gn) * softmax z (cosRow e x g gn) q) * softmax z (fun q' => -(l1Row x g q')) q := rfl

end Rows

/-- Zero minus an extended real is its negation (subtraction is addition of the negation, and zero is neutral). -/
theorem zero_sub_ereal (d : EReal) : (0 : EReal) - d = -d := by
  rw [sub_eq_add_neg, zero_add]

/-- A running total that starts at zero and takes the nb blocks of bs terms one after the other, block 0 first, ends at
    the sum of all nb · bs terms: regrouping a finite sum in a commutative additive monoid. -/
theorem acc_blocks {M : Type*} [AddCommMonoid M] {N : ℕ} (nb bs : ℕ) (hN : N = nb * bs) (f : Fin N → M) (acc : ℕ → M)
    (h0 : acc 0 = 0)
    (hs : ∀ (n : ℕ) (hn : n < nb), acc (n + 1)
      = acc n + ∑ r : Fin bs, f ⟨n * bs + r.val, by rw [hN]; exact BlockSum.pos_lt (⟨n, hn⟩ : Fin nb) r⟩) :
    acc nb = ∑ k, f k := by
  subst hN
  have key : ∀ n : ℕ, n ≤ nb → acc n = ∑ b ∈ Finset.range n,
      (if hb : b < nb then ∑ r : Fin bs, f ⟨b * bs + r.val, BlockSum.pos_lt (⟨b, hb⟩ : Fin nb) r⟩ else 0) := by
    intro n
    induction n with
    | zero => intro _; rw [h0, Finset.range_zero, Finset.sum_empty]
    | succ n ih =>
      intro hn
      have hn' : n < nb := hn
      rw [hs n hn', ih (Nat.le_of_lt hn'), Finset.sum_range_succ, dif_pos hn']
  rw [key nb le_rfl, Finset.sum_range, BlockSum.sum_fin_blocks]
  exact Finset.sum_congr rfl fun b _ => by rw [dif_pos b.isLt]

end Cert.PrototypeRows

end
-- ==== Proof.KernelScores.lean ====
/-
  The kernel's cosine scores. One grid point holds 512 samples X [512, 512], the prototypes g [512, 100] and their
  lengths gn [1, 100]; the body's score array is (X · g) / max (√(row sums of X²) · gn, e), the product a matrix product into
  a zero accumulator, the row sums re-laid as a column and broadcast along the lanes, gn broadcast down the rows. Read at
  (p, q) that is cosRow of sample p's row: entry q of the product is ∑ k, X[p, k] · g[k, q], the column holds ∑ k, X[p, k]²
  on row p, and the one row of gn is read at q.
-/
import proofs.«115044_j76836964926347_2_alg».proof.Proof.Gen.KernelIdeal.Skeleton
import proofs.«115044_j76836964926347_2_alg».proof.Proof.PrototypeRows

noncomputable section

namespace Cert.KernelIdeal.Scores

open Cert.KernelIdeal Cert.KernelIdeal.Gen Idealize.ShloMosaic Idealize.ShloMosaic.ValueIdx
open Cert.RowLayers Cert.ChebRows Cert.PrototypeRows

/-- The body's matrix product contracts the samples' features with the prototypes' rows: rows times columns. -/
theorem dot_rowsTimesCols : RowsTimesCols (a := 512) (K := 512) (b := 100) dot_S512x512_S512x100_S512x100_1_0_0_1_n_n where
  rank := rfl
  size := rfl
  lhs0 := fun j q => by
    unfold DotDims.lhsIdx
    rw [dif_neg (show ¬(0 : Fin S512x512.rank) ∈ dot_S512x512_S512x100_S512x100_1_0_0_1_n_n.lhsBatch by decide),
      dif_pos (show (0 : Fin S512x512.rank) ∈ dot_S512x512_S512x100_S512x100_1_0_0_1_n_n.lhsNonContracting by decide)]
    rfl
  lhs1 := fun j q => dot_S512x512_S512x100_S512x100_1_0_0_1_n_n.lhsIdx_val_of_single rfl j q
  rhs0 := fun j q => dot_S512x512_S512x100_S512x100_1_0_0_1_n_n.rhsIdx_val_of_single rfl j q
  rhs1 := fun j q => by
    unfold DotDims.rhsIdx
    rw [dif_neg (show ¬(1 : Fin S512x100.rank) ∈ dot_S512x512_S512x100_S512x100_1_0_0_1_n_n.rhsBatch by decide),
      dif_pos (show (1 : Fin S512x100.rank) ∈ dot_S512x512_S512x100_S512x100_1_0_0_1_n_n.rhsNonContracting by decide)]
    rfl

/-- The body's score array read at (p, q) is the cosine score of sample p against prototype q. -/
theorem scores_apply (P0 : Vec Ideal S512x512 .f32) (P1 : Vec Ideal S512x100 .f32) (P2 : Vec Ideal S1x100 .f32)
    (p : Fin 512) (q : Fin 100) :
    k0_pay3 P0 P1 P2 (ix2 p q) = cosRow floorE (rowOf P0 p) P1 (rowOf P2 0) q := by
  unfold k0_pay3 k0_pay2
  dsimp only
  rw [shapeCast_self, shapeCast_self]
  show Ideal.div (FloatOps.matmul (F := Ideal) (φ₁ := .f32) (φ₂ := .f32) dot_S512x512_S512x100_S512x100_1_0_0_1_n_n none P0 P1 (constant (F := Ideal) S512x100 .f32 0x00000000#32) (ix2 p q))
      (max (broadcastTo S512x100 (sqrt (F := Ideal) (shapeCast S512x1 (multiReduction (F := Ideal) .add [1] S512 (mulf (F := Ideal) (φ := .f32) P0 P0) 0x00000000#32 reduces_S512x512_S512 (.inl rfl) rfl) shapeCasts_S512_S512x1)) broadcasts_S512x1_S512x100 (ix2 p q)
            * broadcastTo S512x100 P2 broadcasts_S1x100_S512x100 (ix2 p q)) floorE) = _
  rw [Ideal.matmul_constant_zero_apply, dot_rowsTimesCols.sum_eq, Cert.ColumnBroadcast.broadcastTo_a1_ab_apply, broadcastTo_1b_ab_apply]
  show Ideal.div _ (max (Ideal.sqrt (shapeCast S512x1 _ shapeCasts_S512_S512x1 (ix2 p (0 : Fin 1))) * _) floorE) = _
  rw [shapeCast_a_a1_apply]
  have hs : multiReduction (F := Ideal) .add [1] S512 (mulf (F := Ideal) (φ := .f32) P0 P0) 0x00000000#32 reduces_S512x512_S512 (.inl rfl) rfl (ix1 p)
      = ∑ k : Fin 512, rowOf P0 p k * rowOf P0 p k :=
    multiReduction_add_row (mulf (F := Ideal) (φ := .f32) P0 P0) 0x00000000#32 reduces_S512x512_S512 (.inl rfl) rfl p
  exact congrArg (fun t => Ideal.div (∑ k : Fin 512, P0 (ix2 p k) * P1 (ix2 k q)) (max (Ideal.sqrt t * P2 (ix2 (0 : Fin 1) q)) floorE)) hs

/-- So row p of the score array is the row of cosine scores of sample p. -/
theorem rowOf_scores (P0 : Vec Ideal S512x512 .f32) (P1 : Vec Ideal S512x100 .f32) (P2 : Vec Ideal S1x100 .f32) (p : Fin 512) :
    rowOf (k0_pay3 P0 P1 P2) p = cosRow floorE (rowOf P0 p) P1 (rowOf P2 0) :=
  funext fun q => scores_apply P0 P1 P2 p q

end Cert.KernelIdeal.Scores

end
-- ==== Proof.LibSliceDistances.lean ====
/-
  L1 distances summed a slice of features at a time, over the extended reals.

  For samples X [a, D] and prototypes g [D, C], one slice of K features from feature o on contributes, to the distance of
  sample p and prototype q, ∑ r < K, |X[p, o + r] − g[o + r, q]|. A program computes that slice by cutting K columns
  of X and K rows of g, viewing them [a, K, 1] and [1, K, C], broadcasting both to [a, K, C], subtracting, taking
  absolute values and summing the middle axis. This file reads those layout steps at an index given by coordinates
  (a trailing unit axis added, a broadcast along the lanes and one down the rows of a rank-3 array, a sum over the
  middle axis), the whole slice at an entry (slice_apply), and a running total that starts at the zero constant and adds
  one array after the other (total): when the nb slices of bs features are all of the D = nb · bs features, the total read
  at (p, q) is the L1 distance of sample p and prototype q. Sums of extended reals regroup freely, so nothing asks for
  finiteness.
-/
import proofs.«115044_j76836964926347_2_alg».proof.Proof.PrototypeRows

noncomputable section

namespace Cert.SliceDistances

open Idealize.ShloMosaic Idealize.ShloMosaic.ValueIdx Cert.RowLayers Cert.PrototypeRows

/-! ## Rank-3 layout steps read at coordinates -/

section Layout
variable {α : Type} {a K C : ℕ}

/-- An [a, K] array viewed [a, K, 1] reads, at (p, r, u), the operand at (p, r). -/
theorem cast_trailing_unit_apply (v : (⟨2, ![a, K]⟩ : Shape).Idx → α) (h : (⟨2, ![a, K]⟩ : Shape).ShapeCasts ⟨3, ![a, K, 1]⟩)
    (p : Fin a) (r : Fin K) (u : Fin 1) : shapeCast ⟨3, ![a, K, 1]⟩ v h (ix3 p r u) = v (ix2 p r) :=
  shapeCast_apply v h _ _ (by
    have hu : u.val = 0 := by omega
    rw [Shape.rowMajor_val_two, Shape.rowMajor_val_three]
    show p.val * K + r.val = (p.val * K + r.val) * 1 + u.val
    rw [hu, Nat.mul_one, Nat.add_zero])

/-- An [a, K, 1] array broadcast along the lanes to [a, K, C] reads, at (p, r, q), the operand at (p, r, 0). -/
theorem bcast_lanes3_apply (v : (⟨3, ![a, K, 1]⟩ : Shape).Idx → α) (h : (⟨3, ![a, K, 1]⟩ : Shape).Broadcasts ⟨3, ![a, K, C]⟩)
    (p : Fin a) (r : Fin K) (q : Fin C) : broadcastTo ⟨3, ![a, K, C]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if K = 1 then 0 else r.val
    split
    · have := r.isLt; omega
    · rfl
  | ⟨2, _⟩ => rfl

/-- A [1, K, C] array broadcast down a rows to [a, K, C] reads, at (p, r, q), the operand at (0, r, q). -/
theorem bcast_rows3_apply (v : (⟨3, ![1, K, C]⟩ : Shape).Idx → α) (h : (⟨3, ![1, K, C]⟩ : Shape).Broadcasts ⟨3, ![a, K, C]⟩)
    (p : Fin a) (r : Fin K) (q : Fin C) : broadcastTo ⟨3, ![a, K, C]⟩ v h (ix3 p r q) = v (ix3 (0 : Fin 1) r q) := by
  refine broadcastTo_apply v h (ix3 p r q) (ix3 (0 : Fin 1) r q) fun ax => ?_
  match ax with
  | ⟨0, _⟩ => rfl
  | ⟨1, _⟩ =>
    show r.val = if K = 1 then 0 else r.val
    split
    · have := r.isLt; omega
    · rfl
  | ⟨2, _⟩ =>
    show q.val = if C = 1 then 0 else q.val
    split
    · have := q.isLt; omega
    · rfl

/-- The reduced index (p, q) with the middle coordinate k put back is (p, k, q). -/
theorem lift_mid (h : (⟨3, ![a, K, C]⟩ : Shape).Reduces [1] (⟨2, ![a, C]⟩ : Shape)) (p : Fin a) (q : Fin C)
    (k : Fin ((⟨3, ![a, K, C]⟩ : Shape).size 1)) : h.lift (ix2 p q) k = ix3 p (⟨k.val, k.isLt⟩ : Fin K) q := by
  funext c; apply Fin.ext
  fin_cases c <;> rfl

end Layout

/-! ## One slice of features -/

section Slice
variable {a D C K : ℕ}

/-- The slice of K features from feature o on, as a program computes it, read at (p, q): the sum over the slice of the
    absolute differences of sample p's features and prototype q's entries. -/
theorem slice_apply (o : ℕ) (X : FVec Ideal ⟨2, ![a, D]⟩ .f32) (g : FVec Ideal ⟨2, ![D, C]⟩ .f32)
    (h1 : (⟨2, ![a, D]⟩ : Shape).Slices ![0, o] ⟨2, ![a, K]⟩) (h2 : (⟨2, ![D, C]⟩ : Shape).Slices ![o, 0] ⟨2, ![K, C]⟩)
    (hs1 : (⟨2, ![a, K]⟩ : Shape).ShapeCasts ⟨3, ![a, K, 1]⟩) (hs2 : (⟨2, ![K, C]⟩ : Shape).ShapeCasts ⟨3, ![1, K, C]⟩)
    (hb1 : (⟨3, ![a, K, 1]⟩ : Shape).Broadcasts ⟨3, ![a, K, C]⟩) (hb2 : (⟨3, ![1, K, C]⟩ : Shape).Broadcasts ⟨3, ![a, K, C]⟩)
    (hr : (⟨3, ![a, K, C]⟩ : Shape).Reduces [1] (⟨2, ![a, C]⟩ : Shape)) (hφ : FKind.Formats .f32)
    (hacc : (0x00000000#32 : BitVec 32) = FKind.add.neutral .f32 hφ) (p : Fin a) (q : Fin C) :
    multiReduction .add [1] ⟨2, ![a, C]⟩
        (absf (subf (broadcastTo ⟨3, ![a, K, C]⟩ (shapeCast ⟨3, ![a, K, 1]⟩ (extractStridedSlice ⟨2, ![a, K]⟩ ![0, o] X h1) hs1) hb1)
                    (broadcastTo ⟨3, ![a, K, C]⟩ (shapeCast ⟨3, ![1, K, C]⟩ (extractStridedSlice ⟨2, ![K, C]⟩ ![o, 0] g h2) hs2) hb2)))
        0x00000000#32 hr hφ hacc (ix2 p q)
      = ∑ r : Fin K, absDiff (rowOf X p) g q ⟨o + r.val, Nat.lt_of_lt_of_le (Nat.add_lt_add_left r.isLt o) (h1.2 1)⟩ := by
  rw [Ideal.multiReduction_add_single]
  show (∑ r : Fin K, absf (subf _ _) (hr.lift (ix2 p q) r)) = _
  refine Finset.sum_congr rfl fun r _ => ?_
  rw [lift_mid hr p q r]
  show max (broadcastTo ⟨3, ![a, K, C]⟩ _ hb1 (ix3 p r q) - broadcastTo ⟨3, ![a, K, C]⟩ _ hb2 (ix3 p r q))
      (-(broadcastTo ⟨3, ![a, K, C]⟩ _ hb1 (ix3 p r q) - broadcastTo ⟨3, ![a, K, C]⟩ _ hb2 (ix3 p r q))) = _
  rw [bcast_lanes3_apply, bcast_rows3_apply, cast_trailing_unit_apply, shapeCast_ab_1ab_apply,
    slice2_axis1_apply o X h1 p r ⟨o + r.val, Nat.lt_of_lt_of_le (Nat.add_lt_add_left r.isLt o) (h1.2 1)⟩ rfl,
    slice2_axis0_apply o g h2 r q ⟨o + r.val, Nat.lt_of_lt_of_le (Nat.add_lt_add_left r.isLt o) (h1.2 1)⟩ rfl]
  rfl

end Slice

/-! ## The running total -/

section Total
variable {s : Shape}

/-- The running total after n arrays: the zero constant, then one array added after the other. -/
def total (c : ℕ → FVec Ideal s .f32) : ℕ → FVec Ideal s .f32
  | 0 => broadcast s (Scalar.ofBits .f32 0x00000000#32)
  | n + 1 => addf (total c n) (c n)

theorem total_zero_apply (c : ℕ → FVec Ideal s .f32) (i : s.Idx) : total c 0 i = 0 :=
  Ideal.ofBits_zero_f32

theorem total_succ_apply (c : ℕ → FVec Ideal s .f32) (n : ℕ) (i : s.Idx) : total c (n + 1) i = total c n i + c n i := rfl

end Total

/-- When array n of the total is the slice of the bs features from feature n · bs on, for each of the nb slices of the
    D = nb · bs features, the total after nb arrays read at (p, q) is the L1 distance of sample p and prototype q. -/
theorem total_slices_apply {a D C : ℕ} (nb bs : ℕ) (hD : D = nb * bs) (X : FVec Ideal ⟨2, ![a, D]⟩ .f32)
    (g : FVec Ideal ⟨2, ![D, C]⟩ .f32) (c : ℕ → FVec Ideal ⟨2, ![a, C]⟩ .f32)
    (hc : ∀ (n : ℕ) (hn : n < nb) (p : Fin a) (q : Fin C), c n (ix2 p q)
      = ∑ r : Fin bs, absDiff (rowOf X p) g q ⟨n * bs + r.val, by rw [hD]; exact BlockSum.pos_lt (⟨n, hn⟩ : Fin nb) r⟩)
    (p : Fin a) (q : Fin C) : total c nb (ix2 p q) = l1Row (rowOf X p) g q :=
  acc_blocks nb bs hD (absDiff (rowOf X p) g q) (fun n => total c n (ix2 p q)) (total_zero_apply c _)
    (fun n hn => by rw [total_succ_apply, hc n hn p q])

end Cert.SliceDistances

end
-- ==== Proof.KernelDistances.lean ====
/-
  The kernel's L1 distances. The body cuts the 512 features into 64 slices of 8; slice n takes columns 8n … 8n+7 of the
  samples X [512, 512] and rows 8n … 8n+7 of the prototypes g [512, 100], and adds its [512, 100] array of partial
  distances to a running total that starts at the zero constant. Here slice n is written once, for a variable n, with
  its offsets 8·n; the total after 64 slices, read at (p, q), is the whole L1 distance of sample p and prototype q, since
  64 · 8 = 512 features are all of them and sums of extended reals regroup freely. Negated as 0 − d, its row is the row
  of negated distances.
-/
import proofs.«115044_j76836964926347_2_alg».proof.Proof.Gen.KernelIdeal.Skeleton
import proofs.«115044_j76836964926347_2_alg».proof.Proof.LibSliceDistances

noncomputable section

namespace Cert.KernelIdeal.Distances

open Cert.KernelIdeal Cert.KernelIdeal.Gen Idealize.ShloMosaic Idealize.ShloMosaic.ValueIdx
open Cert.RowLayers Cert.PrototypeRows Cert.SliceDistances

/-- Columns 8n … 8n+7 are inside the 512 columns of the samples, for n < 64. -/
theorem cols_in (n : ℕ) (hn : n < 64) : S512x512.Slices ![0, 8 * n] S512x8 :=
  ⟨rfl, fun ax => by
    match ax with
    | ⟨0, _⟩ => exact Nat.le_refl 512
    | ⟨1, _⟩ => show 8 * n + 8 ≤ 512; omega⟩

/-- Rows 8n … 8n+7 are inside the 512 rows of the prototypes, for n < 64. -/
theorem rows_in (n : ℕ) (hn : n < 64) : S512x100.Slices ![8 * n, 0] S8x100 :=
  ⟨rfl, fun ax => by
    match ax with
    | ⟨0, _⟩ => show 8 * n + 8 ≤ 512; omega
    | ⟨1, _⟩ => exact Nat.le_refl 100⟩

/-- Slice n of the distances, as the body computes it (the zero constant from slice 64 on, where there is none). -/
def sliceArr (X : Vec Ideal S512x512 .f32) (g : FVec Ideal S512x100 .f32) (n : ℕ) : FVec Ideal S512x100 .f32 :=
  if hn : n < 64 then
    multiReduction .add [1] S512x100
      (absf (subf (broadcastTo S512x8x100 (shapeCast S512x8x1 (extractStridedSlice S512x8 ![0, 8 * n] X (cols_in n hn)) shapeCasts_S512x8_S512x8x1) broadcasts_S512x8x1_S512x8x100)
                  (broadcastTo S512x8x100 (shapeCast S1x8x100 (extractStridedSlice S8x100 ![8 * n, 0] g (rows_in n hn)) shapeCasts_S8x100_S1x8x100) broadcasts_S1x8x100_S512x8x100)))
      0x00000000#32 reduces_S512x8x100_S512x100 (.inl rfl) rfl
  else broadcast S512x100 (Scalar.ofBits .f32 0x00000000#32)

/-- Slice n read at (p, q): the absolute differences over features 8n … 8n+7. -/
theorem sliceArr_apply (X : Vec Ideal S512x512 .f32) (g : FVec Ideal S512x100 .f32) (n : ℕ) (hn : n < 64) (p : Fin 512) (q : Fin 100) :
    sliceArr X g n (ix2 p q)
      = ∑ r : Fin 8, absDiff (rowOf X p) g q ⟨n * 8 + r.val, by have := r.isLt; omega⟩ := by
  unfold sliceArr
  rw [dif_pos hn]
  refine (slice_apply (8 * n) X g (cols_in n hn) (rows_in n hn) shapeCasts_S512x8_S512x8x1 shapeCasts_S8x100_S1x8x100
    broadcasts_S512x8x1_S512x8x100 broadcasts_S1x8x100_S512x8x100 reduces_S512x8x100_S512x100 (.inl rfl) rfl p q).trans ?_
  refine Finset.sum_congr rfl fun r _ => congrArg (absDiff (rowOf X p) g q) (Fin.ext ?_)
  show 8 * n + r.val = n * 8 + r.val
  omega

/-- The running total of the 64 slices read at (p, q) is the L1 distance of sample p and prototype q. -/
theorem total_apply (X : Vec Ideal S512x512 .f32) (g : FVec Ideal S512x100 .f32) (p : Fin 512) (q : Fin 100) :
    total (sliceArr X g) 64 (ix2 p q) = l1Row (rowOf X p) g q :=
  total_slices_apply 64 8 rfl X g (sliceArr X g) (fun n hn p q => sliceArr_apply X g n hn p q) p q

/-- Zero minus the running total, on row p: the negated distances of sample p. -/
theorem rowOf_negTotal (X : Vec Ideal S512x512 .f32) (g : FVec Ideal S512x100 .f32) (p : Fin 512) :
    rowOf (subf (broadcast S512x100 (Scalar.ofBits .f32 0x00000000#32)) (total (sliceArr X g) 64)) p
      = fun q => -(l1Row (rowOf X p) g q) := by
  funext q
  show Ideal.ofBits .f32 0x00000000#32 - total (sliceArr X g) 64 (ix2 p q) = _
  rw [Ideal.ofBits_zero_f32, zero_sub_ereal, total_apply]

end Cert.KernelIdeal.Distances

end
-- ==== Proof.KernelBlock.lean ====
/-
  What one grid point stores. The body's stored block, a function of the point's samples X [512, 512], the prototypes g
  [512, 100] and their lengths gn [1, 100], is
      (column of largest scores, broadcast along the lanes) · softmax of the scores · softmax of (0 − distances),
  each softmax in the device's spelling (lane maximum and lane sum re-laid as columns), the scores the body's score array
  and the distances the running total of its 64 slices (blockArr; that the body's nested values unfold to exactly this is
  out_eq). Read at (p, q) it is outRow of sample p's row at q.
-/
import proofs.«115044_j76836964926347_2_alg».proof.Proof.Gen.KernelIdeal.Frame
import proofs.«115044_j76836964926347_2_alg».proof.Proof.KernelScores
import proofs.«115044_j76836964926347_2_alg».proof.Proof.KernelDistances

noncomputable section

namespace Cert.KernelIdeal.Block

open Cert.KernelIdeal Cert.KernelIdeal.Gen Idealize.ShloMosaic Idealize.ShloMosaic.ValueIdx
open Cert.RowLayers Cert.ChebRows Cert.SoftmaxRows Cert.PrototypeRows Cert.SliceDistances
open Cert.KernelIdeal.Scores Cert.KernelIdeal.Distances

/-- A per-row value re-laid as a column and broadcast along the lanes. -/
def lanes (v : FVec Ideal S512 .f32) : FVec Ideal S512x100 .f32 :=
  broadcastTo S512x100 (shapeCast S512x1 v shapeCasts_S512_S512x1) broadcasts_S512x1_S512x100

/-- The largest entry of every row. -/
def rowMaxArr (x : FVec Ideal S512x100 .f32) : FVec Ideal S512 .f32 :=
  multiReduction .maximumf [1] S512 x 0xFF800000#32 reduces_S512x100_S512 (.inl rfl) rfl

/-- The exponentials of an array shifted row by row by its largest entry. -/
def shiftExp (x : FVec Ideal S512x100 .f32) : FVec Ideal S512x100 .f32 :=
  exp (subf x (lanes (maximumf (broadcast S512 (Scalar.ofBits .f32 0xFF800000#32)) (rowMaxArr x))))

/-- The row-wise softmax in the device's spelling. -/
def softmaxArr (x : FVec Ideal S512x100 .f32) : FVec Ideal S512x100 .f32 :=
  divf (shiftExp x) (lanes (multiReduction .add [1] S512 (shiftExp x) 0x00000000#32 reduces_S512x100_S512 (.inl rfl) rfl))

/-- The block one grid point stores, from the point's three input blocks. -/
def blockArr (P0 : Vec Ideal S512x512 .f32) (P1 : Vec Ideal S512x100 .f32) (P2 : Vec Ideal S1x100 .f32) : FVec Ideal S512x100 .f32 :=
  mulf (mulf (lanes (rowMaxArr (k0_pay3 P0 P1 P2))) (softmaxArr (k0_pay3 P0 P1 P2)))
       (softmaxArr (subf (broadcast S512x100 (Scalar.ofBits .f32 0x00000000#32)) (total (sliceArr P0 (k0_pay2 P1)) 64)))

theorem offsets_zero : (![0, 0] : Fin 2 → Nat) = fun _ => 0 := funext fun a => by fin_cases a <;> rfl

/-- The buffer after the body holds blockArr of the loaded blocks: the one store covers the buffer, the loads are whole,
    and the body's values, slice after slice, are the running total's. -/
theorem out_eq (P0 : Vec Ideal S512x512 .f32) (P1 : Vec Ideal S512x100 .f32) (P2 : Vec Ideal S1x100 .f32) :
    out0_3 P0 P1 P2 = blockArr P0 P1 P2 := by
  unfold out0_3
  rw [View.canon_unit_zero offsets_zero]
  simp only [View.ld_unit_zero (S := S512x512) offsets_zero, View.ld_unit_zero (S := S512x100) offsets_zero,
    View.ld_unit_zero (S := S1x100) offsets_zero]
  rfl

theorem lanes_apply (v : FVec Ideal S512 .f32) (p : Fin 512) (q : Fin 100) : lanes v (ix2 p q) = v (ix1 p) :=
  column_device_apply v shapeCasts_S512_S512x1 broadcasts_S512x1_S512x100 p q

theorem softmaxArr_apply (x : FVec Ideal S512x100 .f32) (p : Fin 512) (q : Fin 100) :
    softmaxArr x (ix2 p q) = softmax startE (rowOf x p) q := by
  unfold softmaxArr shiftExp lanes rowMaxArr
  exact device_softmax_apply x 0xFF800000#32 0x00000000#32 reduces_S512x100_S512 (.inl rfl) rfl rfl
    shapeCasts_S512_S512x1 broadcasts_S512x1_S512x100 p q

/-- The stored block read at (p, q) is the classifier's output row of sample p at q. -/
theorem block_apply (P0 : Vec Ideal S512x512 .f32) (P1 : Vec Ideal S512x100 .f32) (P2 : Vec Ideal S1x100 .f32)
    (p : Fin 512) (q : Fin 100) :
    blockArr P0 P1 P2 (ix2 p q) = outRow startE floorE (rowOf P0 p) P1 (rowOf P2 0) q := by
  have hg : k0_pay2 P1 = P1 := by unfold k0_pay2; exact shapeCast_self P1 _
  show (lanes (rowMaxArr (k0_pay3 P0 P1 P2)) (ix2 p q) * softmaxArr (k0_pay3 P0 P1 P2) (ix2 p q))
      * softmaxArr (subf (broadcast S512x100 (Scalar.ofBits .f32 0x00000000#32)) (total (sliceArr P0 (k0_pay2 P1)) 64)) (ix2 p q) = _
  rw [lanes_apply, softmaxArr_apply, softmaxArr_apply, hg, rowOf_negTotal, rowOf_scores]
  have hm : rowMaxArr (k0_pay3 P0 P1 P2) (ix1 p) = rowMax startE (cosRow floorE (rowOf P0 p) P1 (rowOf P2 0)) :=
    (multiReduction_max_row (k0_pay3 P0 P1 P2) 0xFF800000#32 reduces_S512x100_S512 (.inl rfl) rfl p).trans
      (congrArg (rowMax startE) (rowOf_scores P0 P1 P2 p))
  rw [hm]
  rfl

end Cert.KernelIdeal.Block

end
-- ==== Proof.KernelResult.lean ====
/-
  From the grid points' blocks to the whole result array, and the kernel's run.

  Grid point t stages rows 512·t … 512·t+511 of the samples, all of the prototypes and all of their lengths, and writes
  back rows 512·t … 512·t+511 of the result. What it writes is, entry (p, q) of the block, outRow of row 512·t + p of the
  samples — block t of the classifier's output array outArr of the three arrays as the region finds them. The 8 blocks cover
  the 4096 rows (row r lies in block r / 512), so the array after the run IS outArr. The prototypes' array and the lengths'
  array are what the host operations before the region compute from the second argument: the view [512, 100] of it, and
  the square roots of its columns' sums of squares.
-/
import proofs.«115044_j76836964926347_2_alg».proof.Proof.ValueBlocks
import proofs.«115044_j76836964926347_2_alg».proof.Proof.KernelBlock
import Idealize.ShloMosaic.Lib.StableHlo.Run

noncomputable section

namespace Cert.KernelIdeal.Result

open Cert.KernelIdeal Cert.KernelIdeal.Gen Cert.KernelIdeal.ValueBlocks Idealize.ShloMosaic Idealize.ShloMosaic.TcCoe Idealize.SL.Sem
open Idealize.ShloMosaic.ValueIdx Idealize.ShloMosaic.StableHlo
open Idealize.ShloMosaic.Pipeline (Dat)
open Cert.RowLayers Cert.PrototypeRows Cert.KernelIdeal.Block

variable (m : (ℓ : Loc nD τ sig) → Buf (Elt Ideal) ℓ) (ρ : Dev nD → PrngReg)

/-! ## The arrays the host operations before the region write -/

/-- The prototypes [1, 512, 100] viewed [512, 100]. -/
def prototypesOf (a1 : Vec Ideal S1x512x100 .f32) : FVec Ideal S512x100 .f32 :=
  shapeCast S512x100 a1 shapeCasts_S1x512x100_S512x100

/-- The prototypes' lengths, a [1, 100] array: the square roots of the columns' sums of squares. -/
def lengthsOf (a1 : Vec Ideal S1x512x100 .f32) : FVec Ideal S1x100 .f32 :=
  Host.sqrt (F := Ideal) (broadcastInDim S1x100 ![1] bcast_S100_S1x100_1
    (Host.reduceAdd (F := Ideal) (mulf (F := Ideal) (φ := .f32) (prototypesOf a1) (prototypesOf a1)) (constant (F := Ideal) S_ .f32 0x00000000#32)
      reducesTo_S512x100_S100_d0 h_S_))

theorem V_main_v0 (c : Dev nD) : (V m c main_v0 : S512x100.Idx → EReal) = prototypesOf (m ((c : Thread nD τ).loc main_arg1)) := by
  dsimp only [Gen.V, Gen.hostOps0]; after_results; rfl

theorem V_main_v4 (c : Dev nD) : (V m c main_v4 : S1x100.Idx → EReal) = lengthsOf (m ((c : Thread nD τ).loc main_arg1)) := by
  dsimp only [Gen.V, Gen.hostOps0]; after_results; rfl

/-! ## Each window's block at a grid point -/

/-- The printed index maps, decided over the 8 grid points: the samples' window and the result's window are at block row t,
    the prototypes' and the lengths' windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := by
  have h8 : cfg0.N = 8 := N_0
  have := t.isLt
  omega

/-- Row 512·t + p of the array, for a row p of block t. -/
def rowAt (t : Fin cfg0.N) (p : Fin 512) : Fin 4096 := ⟨t.val * 512 + p.val, by have := point_lt t; have := p.isLt; omega⟩

/-- Row p of the samples' block at point t is row 512·t + p of the samples. -/
theorem samples_block (c : Dev nD) (t : Fin cfg0.N) (p : Fin 512) :
    rowOf (iblk m c 0 t : Vec Ideal S512x512 .f32) p = rowOf (V m c main_arg0 : S4096x512.Idx → EReal) (rowAt t p) := by
  obtain ⟨e0, e1, -⟩ := idx_facts t
  funext k
  show V m c main_arg0 (((cfg0.win 0).blk t).view.emb (ix2 p k)) = V m c main_arg0 (ix2 (rowAt t p) k)
  refine congrArg (V m c main_arg0) (funext fun a => Fin.ext ?_)
  match a with
  | ⟨0, _⟩ => show win0_0.index t (0 : Fin 2) * 512 + 1 * p.val = t.val * 512 + p.val; rw [e0, Nat.one_mul]
  | ⟨1, _⟩ => show win0_0.index t (1 : Fin 2) * 512 + 1 * k.val = k.val; rw [e1, Nat.zero_mul, Nat.zero_add, Nat.one_mul]

/-- The prototypes' block at every point is the whole array. -/
theorem prototypes_block (c : Dev nD) (t : Fin cfg0.N) :
    (iblk m c 1 t : Vec Ideal S512x100 .f32) = (V m c main_v0 : S512x100.Idx → EReal) := by
  obtain ⟨-, -, e2, e3, -⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 512 + 1 * (y 0).val = (y 0).val; rw [e2, Nat.zero_mul, Nat.zero_add, Nat.one_mul]
  | ⟨1, _⟩ => show win0_1.index t (1 : Fin 2) * 100 + 1 * (y 1).val = (y 1).val; rw [e3, Nat.zero_mul, Nat.zero_add, Nat.one_mul]

/-- The lengths' block at every point is the whole array. -/
theorem lengths_block (c : Dev nD) (t : Fin cfg0.N) :
    (iblk m c 2 t : Vec Ideal S1x100 .f32) = (V m c main_v4 : S1x100.Idx → EReal) := by
  obtain ⟨-, -, -, -, e4, e5, -⟩ := idx_facts t
  funext y
  show V m c main_v4 (((cfg0.win 2).blk t).view.emb y) = V m c main_v4 y
  refine congrArg (V m c main_v4) (funext fun a => Fin.ext ?_)
  match a with
  | ⟨0, _⟩ => show win0_2.index t (0 : Fin 2) * 1 + 1 * (y 0).val = (y 0).val; rw [e4, Nat.zero_mul, Nat.zero_add, Nat.one_mul]
  | ⟨1, _⟩ => show win0_2.index t (1 : Fin 2) * 100 + 1 * (y 1).val = (y 1).val; rw [e5, Nat.zero_mul, Nat.zero_add, Nat.one_mul]

/-! ## What a point writes back, the cover, the array after the run -/

/-- The classifier's output array of the three arrays as the region finds them. -/
abbrev resultArr (c : Dev nD) : S4096x100.Idx → EReal :=
  outArr startE floorE (V m c main_arg0 : S4096x512.Idx → EReal) (V m c main_v0 : S512x100.Idx → EReal) (V m c main_v4 : S1x100.Idx → EReal)

/-- What point t writes back is block t of the classifier's output array. -/
theorem flushed_eq (c : Dev nD) (t : Fin cfg0.N) :
    (dats m 0 c).flushed 3 t = ((cfg0.win 3).blk t).view.read (Elt Ideal) (resultArr m c) := by
  rw [flushed3]
  obtain ⟨-, -, -, -, -, -, e6, e7⟩ := idx_facts t
  funext j
  obtain ⟨p, q, rfl⟩ : ∃ (p : Fin 512) (q : Fin 100), j = ix2 p q := ⟨j 0, j 1, eq_ix2 j⟩
  show out0_3 (iblk m c 0 t) (iblk m c 1 t) (iblk m c 2 t) (ix2 p q) = resultArr m c (((cfg0.win 3).blk t).view.emb (ix2 p q))
  have hemb : ((cfg0.win 3).blk t).view.emb (ix2 p q) = ix2 (rowAt t p) q := funext fun a => Fin.ext (by
    match a with
    | ⟨0, _⟩ => show win0_3.index t (0 : Fin 2) * 512 + 1 * p.val = t.val * 512 + p.val; rw [e6, Nat.one_mul]
    | ⟨1, _⟩ => show win0_3.index t (1 : Fin 2) * 100 + 1 * q.val = q.val; rw [e7, Nat.zero_mul, Nat.zero_add, Nat.one_mul])
  rw [hemb]
  refine (congrFun (out_eq (iblk m c 0 t) (iblk m c 1 t) (iblk m c 2 t)) (ix2 p q)).trans ?_
  refine (block_apply (iblk m c 0 t) (iblk m c 1 t) (iblk m c 2 t) p q).trans ?_
  rw [samples_block, prototypes_block, lengths_block]
  rfl

/-- An index of the array is in point t's block iff each coordinate is in the block's range on its axis. -/
theorem mem_blk (t : Fin cfg0.N) (i : S4096x100.Idx) :
    i ∈ ((cfg0.win 3).blk t).view.set ↔ ∀ a : Fin 2, win0_3.index t a * S512x100.size a ≤ (i a).val
      ∧ (i a).val < win0_3.index t a * S512x100.size a + S512x100.size a := by
  show i ∈ ((View.whole main_v5).slice (win0_3.rect t)).set ↔ _
  rw [View.set_slice_whole, Rect.mem_set_unit]
  exact Iff.rfl

/-- Every index of the array lies in the block of a point that writes back: row r is in block r / 512. -/
theorem cover (i : S4096x100.Idx) : ∃ t : Fin cfg0.N, (cfg0.win 3).flush t = true ∧ i ∈ ((cfg0.win 3).blk t).view.set := by
  have hi0 : (i 0).val < 4096 := (i 0).isLt
  have hi1 : (i 1).val < 100 := (i 1).isLt
  have h8 : cfg0.N = 8 := N_0
  have hlt : (i 0).val / 512 < cfg0.N := by rw [h8]; omega
  refine ⟨⟨(i 0).val / 512, hlt⟩, flush0_3 _, ?_⟩
  rw [mem_blk]
  obtain ⟨-, -, -, -, -, -, e6, e7⟩ := idx_facts ⟨(i 0).val / 512, hlt⟩
  have e6' : win0_3.index ⟨(i 0).val / 512, hlt⟩ (0 : Fin 2) = (i 0).val / 512 := e6
  intro a
  match a with
  | ⟨0, _⟩ =>
    show win0_3.index _ (0 : Fin 2) * 512 ≤ (i 0).val ∧ (i 0).val < win0_3.index _ (0 : Fin 2) * 512 + 512
    rw [e6']; omega
  | ⟨1, _⟩ =>
    show win0_3.index _ (1 : Fin 2) * 100 ≤ (i 1).val ∧ (i 1).val < win0_3.index _ (1 : Fin 2) * 100 + 100
    rw [e7]; omega

/-- The result array after the run is the classifier's output array of the arrays as the region finds them. -/
theorem final (c : Dev nD) : (dats m 0 c).arrAt 3 cfg0.N = resultArr m c :=
  (dats m 0 c).arrAt_eq_of_cover 3 (resultArr m c) (fun t _ => flushed_eq m c t) cover

/-- The classifier's output array as a function of the two arguments as launched. -/
def resultOf (a0 : Vec Ideal S4096x512 .f32) (a1 : Vec Ideal S1x512x100 .f32) : S4096x100.Idx → EReal :=
  outArr startE floorE a0 (prototypesOf a1) (lengthsOf a1)

theorem resultArr_eq (c : Dev nD) :
    resultArr m c = resultOf (m ((c : Thread nD τ).loc main_arg0)) (m ((c : Thread nD τ).loc main_arg1)) := by
  unfold resultArr resultOf
  rw [V_main_arg0, V_main_v0, V_main_v4]

/-! ## The run, read -/

/-- Every weakly fair execution of the kernel's program terminates with the result array at the classifier's output array
    of the arguments as launched, the arguments unchanged. -/
theorem run : θ_run defs (onTc (τ := τ) (main (F := Ideal))) ⟨m, fun _ => 0, ρ⟩ fun r => ∀ c : Dev nD,
      r.2.mem ((c : Thread nD τ).loc main_v5) = resultOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (resultArr_eq m c)), (h c).2⟩)
    (run_blocks m ρ)

end Cert.KernelIdeal.Result

end
-- ==== Proof.ReferenceRows.lean ====
/-
  The reference, sample by sample. Its result array is (column of largest scores) · softmax of the scores · softmax of the
  negated distances, over all 4096 samples at once: the scores X · g / max (√(row sums of X²) · gn, e) with g the prototypes
  [1, 512, 100] viewed [512, 100] and gn their lengths; the distances one sum over all 512 features of |X[n, d] − g[d, q]|,
  through rank-3 broadcasts; each softmax in the host's spelling. Read at (n, q), every stage is the matching row function
  of sample n's row, and the result is outRow of that row at q.
-/
import proofs.«115044_j76836964926347_2_alg».proof.Proof.Gen.ReferenceIdeal.Read
import proofs.«115044_j76836964926347_2_alg».proof.Proof.PrototypeRows

noncomputable section

namespace Cert.ReferenceIdeal.Rows

open Cert.ReferenceIdeal Cert.ReferenceIdeal.Gen Cert.ReferenceIdeal.Read Idealize.ShloMosaic Idealize.ShloMosaic.ValueIdx
open Cert.RowLayers Cert.ChebRows Cert.SoftmaxRows Cert.PrototypeRows

variable (x0 : (⟨S4096x512, .f32⟩ : BufTy).Contents (Elt Ideal)) (x1 : (⟨S1x512x100, .f32⟩ : BufTy).Contents (Elt Ideal))

/-! ## The cosine scores -/

/-- The scores array read at (n, q) is the cosine score of sample n against prototype q. -/
theorem scores_apply (n : Fin 4096) (q : Fin 100) :
    val_main_v33 (F := Ideal) x0 x1 (ix2 n q)
      = cosRow floorE (rowOf x0 n) (val_main_v18 (F := Ideal) x1) (rowOf (val_main_v27 (F := Ideal) x1) 0) q := by
  have hl : ∀ k : Fin 512, lidx_main_v19 (ix2 n q) k = ix2 n k := fun k =>
    funext fun a => Fin.ext (by match a with | ⟨0, _⟩ => rfl | ⟨1, _⟩ => rfl)
  have hr : ∀ k : Fin 512, ridx_main_v19 (ix2 n q) k = ix2 k q := fun k =>
    funext fun a => Fin.ext (by match a with | ⟨0, _⟩ => rfl | ⟨1, _⟩ => rfl)
  have hx : ∀ k : Fin 512, idx_main_v21 (idx_main_v22 (idx_main_v28 (ix2 n q))) k = ix2 n k := fun k =>
    funext fun a => Fin.ext (by match a with | ⟨0, _⟩ => rfl | ⟨1, _⟩ => rfl)
  have hg : idx_main_v29 (ix2 n q) = ix2 (0 : Fin 1) q :=
    funext fun a => Fin.ext (by match a with | ⟨0, _⟩ => rfl | ⟨1, _⟩ => rfl)
  rw [val_main_v33_apply, val_main_v19_apply, val_main_v32_apply, val_main_v30_apply, val_main_v31_apply, val_main_v28_apply,
    val_main_v29_apply, val_main_v23_apply, val_main_v22_apply, val_main_v21_apply]
  simp only [val_main_v20_apply, val_main_cst_3_apply, val_main_cst_5_apply, hl, hr, hx, hg]
  show Ideal.div _ (max (Ideal.sqrt (Ideal.ofBits .f32 0x00000000#32 + _) * _) floorE) = _
  rw [Ideal.ofBits_zero_f32, zero_add]
  rfl

theorem rowOf_scores (n : Fin 4096) :
    rowOf (val_main_v33 (F := Ideal) x0 x1) n
      = cosRow floorE (rowOf x0 n) (val_main_v18 (F := Ideal) x1) (rowOf (val_main_v27 (F := Ideal) x1) 0) :=
  funext fun q => scores_apply x0 x1 n q

/-! ## The negated distances -/

/-- The prototypes viewed [512, 100] read at (k, q) are the argument at (0, k, q). -/
theorem prototypes_apply (k : Fin 512) (q : Fin 100) : val_main_v18 (F := Ideal) x1 (ix2 k q) = x1 (ix3 (0 : Fin 1) k q) := by
  unfold val_main_v18
  exact shapeCast_1ab_ab_apply x1 _ k q

/-- The negated distance array read at (n, q): minus the L1 distance of sample n and prototype q. -/
theorem negDistances_apply (n : Fin 4096) (q : Fin 100) :
    val_main_v6 (F := Ideal) x0 x1 (ix2 n q) = -(l1Row (rowOf x0 n) (val_main_v18 (F := Ideal) x1) q) := by
  have h0 : ∀ k : Fin 512, idx_main_v0 (idx_main_v1 (idx_main_v5 (ix2 n q) k)) = ix2 n k := fun k =>
    funext fun a => Fin.ext (by match a with | ⟨0, _⟩ => rfl | ⟨1, _⟩ => rfl)
  have h2 : ∀ k : Fin 512, idx_main_v2 (idx_main_v5 (ix2 n q) k) = ix3 (0 : Fin 1) k q := fun k =>
    funext fun a => Fin.ext (by match a with | ⟨0, _⟩ => rfl | ⟨1, _⟩ => rfl | ⟨2, _⟩ => rfl)
  rw [val_main_v6_apply, val_main_v5_apply]
  simp only [val_main_v4_apply, val_main_v3_apply, val_main_v1_apply, val_main_v0_apply, val_main_v2_apply, val_main_cst_apply, h0, h2]
  show -(Ideal.ofBits .f32 0x00000000#32
      + ∑ k : Fin 512, max (x0 (ix2 n k) - x1 (ix3 (0 : Fin 1) k q)) (-(x0 (ix2 n k) - x1 (ix3 (0 : Fin 1) k q)))) = _
  rw [Ideal.ofBits_zero_f32, zero_add]
  refine congrArg Neg.neg (Finset.sum_congr rfl fun k _ => ?_)
  unfold absDiff
  rw [prototypes_apply]
  rfl

theorem rowOf_negDistances (n : Fin 4096) :
    rowOf (val_main_v6 (F := Ideal) x0 x1) n = fun q => -(l1Row (rowOf x0 n) (val_main_v18 (F := Ideal) x1) q) :=
  funext fun q => negDistances_apply x0 x1 n q

/-! ## The two softmaxes and the confidence -/

/-- The softmax of the negated distances, read at (n, q). -/
theorem distSoftmax_apply (n : Fin 4096) (q : Fin 100) :
    val_main_v17 (F := Ideal) x0 x1 (ix2 n q) = softmax startE (rowOf (val_main_v6 (F := Ideal) x0 x1) n) q := by
  unfold val_main_v17 val_main_v16 val_main_v15 val_main_v14 val_main_v13 val_main_v12 val_main_v11 val_main_v10 val_main_v9
    val_main_v8 val_main_v7 val_main_cst_0 val_main_cst_1 val_main_cst_2
  exact host_softmax_apply (val_main_v6 (F := Ideal) x0 x1) 0xFF800000#32 reducesTo_S4096x100_S4096_d1 (by decide) h_S_
    bcast_S_S4096 bcast_S4096_S4096x1_0 bcast_S4096x1_S4096x100_0_1 n q

/-- The softmax of the scores, read at (n, q). -/
theorem scoreSoftmax_apply (n : Fin 4096) (q : Fin 100) :
    val_main_v46 (F := Ideal) x0 x1 (ix2 n q) = softmax startE (rowOf (val_main_v33 (F := Ideal) x0 x1) n) q := by
  unfold val_main_v46 val_main_v45 val_main_v44 val_main_v43 val_main_v42 val_main_v41 val_main_v40 val_main_v39 val_main_v38
    val_main_v37 val_main_v36 val_main_cst_7 val_main_cst_8 val_main_cst_9
  exact host_softmax_apply (val_main_v33 (F := Ideal) x0 x1) 0xFF800000#32 reducesTo_S4096x100_S4096_d1 (by decide) h_S_
    bcast_S_S4096 bcast_S4096_S4096x1_0 bcast_S4096x1_S4096x100_0_1 n q

/-- The confidence column broadcast along the lanes, read at (n, q): the largest score of sample n. -/
theorem confidence_apply (n : Fin 4096) (q : Fin 100) :
    val_main_v47 (F := Ideal) x0 x1 (ix2 n q) = rowMax startE (rowOf (val_main_v33 (F := Ideal) x0 x1) n) := by
  unfold val_main_v47 val_main_v35 val_main_v34 val_main_cst_6
  rw [lanes_host_apply, column_host_apply]
  exact hostReduce_max_row (val_main_v33 (F := Ideal) x0 x1) _ reducesTo_S4096x100_S4096_d1 (by decide) h_S_ n

/-! ## The result -/

/-- The reference's result read at (n, q) is the classifier's output row of sample n at q. -/
theorem result_apply (n : Fin 4096) (q : Fin 100) :
    val_main_v49 (F := Ideal) x0 x1 (ix2 n q)
      = outRow startE floorE (rowOf x0 n) (val_main_v18 (F := Ideal) x1) (rowOf (val_main_v27 (F := Ideal) x1) 0) q := by
  rw [val_main_v49_apply, val_main_v48_apply, confidence_apply, scoreSoftmax_apply, distSoftmax_apply, rowOf_scores, rowOf_negDistances]
  rfl

/-- So the reference's result array is the classifier's output array of the samples, the prototypes viewed [512, 100] and
    their lengths. -/
theorem result_eq :
    val_main_v49 (F := Ideal) x0 x1 = outArr startE floorE x0 (val_main_v18 (F := Ideal) x1) (val_main_v27 (F := Ideal) x1) :=
  eq_outArr_of_entries startE floorE x0 _ _ _ (fun n q => result_apply x0 x1 n q)

end Cert.ReferenceIdeal.Rows

end
-- ==== Proof.lean ====
/-
  A prototype classifier against its reference, over the extended reals.

  For samples X [4096, 512] and class prototypes [1, 512, 100] both programs return, for every sample and class,
      (largest cosine score of the sample) · softmax of its cosine scores · softmax of its negated L1 distances,
  the cosine scores X · g / max (√(row sums of X²) · gn, 1e-8) with gn the prototypes' lengths (PrototypeRows: outRow, outArr).
  The kernel works on 512 samples per grid point and sums each L1 distance eight features at a time into a running
  total that starts at zero; the reference sums all 512 features at once and negates with −d where the kernel writes
  0 − d. Sums of extended reals regroup freely and 0 − d = −d for every extended real, so the two results agree entry
  by entry with no finiteness asked: the precondition is never opened. Every constant is the same word in both programs
  and is never evaluated, except the zero, which is 0.

  The kernel's side: one grid point's stored block is outRow of each of its samples (KernelScores, KernelDistances,
  KernelBlock), the eight blocks cover the result array, and the arrays the windows stage are the host operations'
  values of the second argument (KernelResult). The reference's side: every stage read on a row (ReferenceRows). The two
  programs compute the prototypes' view and lengths with the same host operations, so those are one term on both sides.
  Nothing in the kernel was rewritten on the way to its idealized form, so what is to be preserved is the trivial statement.
-/
import proofs.«115044_j76836964926347_2_alg».proof.Defs
import proofs.«115044_j76836964926347_2_alg».proof.Proof.Gen.Kernel
import proofs.«115044_j76836964926347_2_alg».proof.Proof.Gen.Kernel.Skeleton
import proofs.«115044_j76836964926347_2_alg».proof.Proof.Gen.Kernel.Launch
import proofs.«115044_j76836964926347_2_alg».proof.Proof.Gen.Kernel.Points
import proofs.«115044_j76836964926347_2_alg».proof.Proof.Gen.Kernel.Frame
import proofs.«115044_j76836964926347_2_alg».proof.Proof.Gen.KernelIdeal
import proofs.«115044_j76836964926347_2_alg».proof.Proof.Gen.KernelIdeal.Skeleton
import proofs.«115044_j76836964926347_2_alg».proof.Proof.Gen.KernelIdeal.Launch
import proofs.«115044_j76836964926347_2_alg».proof.Proof.Gen.KernelIdeal.Points
import proofs.«115044_j76836964926347_2_alg».proof.Proof.Gen.KernelIdeal.Frame
import proofs.«115044_j76836964926347_2_alg».proof.Proof.Gen.ReferenceIdeal
import proofs.«115044_j76836964926347_2_alg».proof.Proof.Gen.Pre_finite_inputs
import proofs.«115044_j76836964926347_2_alg».proof.Proof.Gen.ReferenceIdeal.Run
import proofs.«115044_j76836964926347_2_alg».proof.Proof.Gen.ReferenceIdeal.Read
import proofs.«115044_j76836964926347_2_alg».proof.Proof.KernelResult
import proofs.«115044_j76836964926347_2_alg».proof.Proof.ReferenceRows
import Idealize.ShloMosaic.Adequacy
import Idealize.ShloMosaic.Init

noncomputable section

namespace Cert.Proof

open Idealize.ShloMosaic Idealize.SL.Sem Cert.PrototypeRows

/-- The prototypes' view [512, 100] is the same function of the second argument in both programs. -/
theorem prototypes_same (a1 : Vec Ideal Cert.KernelIdeal.S1x512x100 .f32) :
    Cert.ReferenceIdeal.Read.val_main_v18 (F := Ideal) a1 = Cert.KernelIdeal.Result.prototypesOf a1 := rfl

/-- The prototypes' lengths are the same function of the second argument in both programs: the same host operations. -/
theorem lengths_same (a1 : Vec Ideal Cert.KernelIdeal.S1x512x100 .f32) :
    Cert.ReferenceIdeal.Read.val_main_v27 (F := Ideal) a1 = Cert.KernelIdeal.Result.lengthsOf a1 := rfl

/-- The kernel as printed runs, and leaves its arguments unchanged. -/
theorem frame_kernel : Cert.frame_Kernel := fun m ρ _ => Cert.Kernel.Gen.frame m ρ

/-- The idealized kernel runs, and leaves its arguments unchanged. -/
theorem frame_kernelIdeal : Cert.frame_KernelIdeal := fun m ρ _ => Cert.KernelIdeal.Gen.frame m ρ

/-- The idealized reference runs, and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealized form. -/
theorem preserves : Cert.preserves_Kernel_KernelIdeal := trivial

/-- Both programs end with the classifier's output array of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.Rows.result_eq, (hagree c).1, (hagree c).2,
    prototypes_same, lengths_same]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
